-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50x8192 : Shape := ⟨2, ![50, 8192]⟩
abbrev S8192x8192 : Shape := ⟨2, ![8192, 8192]⟩
abbrev S8192 : Shape := ⟨1, ![8192]⟩
abbrev S_ : Shape := ⟨0, ![]⟩

class Facts : Prop where
  bcast_S_S50x8192 : S_.BroadcastsInDim S50x8192 (![] : Fin 0 → Fin S50x8192.rank)
  reducesTo_S50x8192_S_d0_1 : S50x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S50x8192 .f32) (main_arg1 : FVec F S8192x8192 .f32) (main_arg2 : FVec F S8192 .f32) : IVec S_ 1 :=
  let main_v0 : FVec F S50x8192 .f32 := Host.absf main_arg0
  let main_cst : FVec F S_ .f32 := constant S_ .f32 0x7F800000#32
  let main_v1 : FVec F S50x8192 .f32 := broadcastInDim S50x8192 ![] bcast_S_S50x8192 main_cst
  let main_v2 : IVec S50x8192 1 := cmpf .olt main_v0 main_v1
  let main_c : IVec S_ 1 := constantI S_ 1 1#1
  let main_v3 : IVec S_ 1 := (fun x v => Host.reduce IntOp.andi x v reducesTo_S50x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S50x8192 : Shape := ⟨2, ![50, 8192]⟩
abbrev S8192x8192 : Shape := ⟨2, ![8192, 8192]⟩
abbrev S8192 : Shape := ⟨1, ![8192]⟩
abbrev S1x8192 : Shape := ⟨2, ![1, 8192]⟩
abbrev S50x2048 : Shape := ⟨2, ![50, 2048]⟩
abbrev S2048x2048 : Shape := ⟨2, ![2048, 2048]⟩
abbrev S1x2048 : Shape := ⟨2, ![1, 2048]⟩
abbrev S50x1024 : Shape := ⟨2, ![50, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S50x8192, .f32⟩
  | .hbm, ⟨1, _⟩ => ⟨S8192x8192, .f32⟩
  | .hbm, ⟨2, _⟩ => ⟨S8192, .f32⟩
  | .hbm, ⟨3, _⟩ => ⟨S1x8192, .f32⟩
  | .hbm, ⟨4, _⟩ => ⟨S50x8192, .f32⟩
  | .local _ .vmem, ⟨0, _⟩ => ⟨S50x2048, .f32⟩
  | .local _ .vmem, ⟨1, _⟩ => ⟨S50x2048, .f32⟩
  | .local _ .vmem, ⟨2, _⟩ => ⟨S2048x2048, .f32⟩
  | .local _ .vmem, ⟨3, _⟩ => ⟨S2048x2048, .f32⟩
  | .local _ .vmem, ⟨4, _⟩ => ⟨S1x2048, .f32⟩
  | .local _ .vmem, ⟨5, _⟩ => ⟨S1x2048, .f32⟩
  | .local _ .vmem, ⟨6, _⟩ => ⟨S50x2048, .f32⟩
  | .local _ .vmem, ⟨7, _⟩ => ⟨S50x2048, .f32⟩
  | .local _ .vmem, ⟨8, _⟩ => ⟨S50x2048, .f32⟩
  | _, _ => ⟨S50x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_mult1 : BitVec 32 :=
  let c0_i32_1 : BitVec 32 := 0#32
  let c1024_i32 : BitVec 32 := 1024#32
  let v3 : BitVec 32 := Scalar.muli c0_i32_1 c1024_i32
  v3
def k0_off1 (c0_i32_1 : BitVec 32) : Fin 2 → Nat :=
  let c0 : Index := 0#32
  let c1024_i32 : BitVec 32 := 1024#32
  let v3 : BitVec 32 := Scalar.muli c0_i32_1 c1024_i32
  let v4 : BitVec 32 := v3
  let v5 : Index := Scalar.indexCast v4
  ![0, v5.toNat]
def k0_off2 (c0_i32_1 : BitVec 32) : Fin 2 → Nat :=
  let c0_2 : Index := 0#32
  let c1024_i32 : BitVec 32 := 1024#32
  let v3 : BitVec 32 := Scalar.muli c0_i32_1 c1024_i32
  let v4 : BitVec 32 := v3
  let v8 : Index := Scalar.indexCast v4
  ![0, v8.toNat]
def k0_mult2 : BitVec 32 :=
  let c1_i32 : BitVec 32 := 1#32
  let c1024_i32_7 : BitVec 32 := 1024#32
  let v17 : BitVec 32 := Scalar.muli c1_i32 c1024_i32_7
  v17
def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S50x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S50x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S1x8192 : S8192.ShapeCasts S1x8192
  inb_S50x2048_S50x2048_0_0 : ∀ a, (![0, 0] : Fin 2 → Nat) a + S50x2048.size a ≤ S50x2048.size a
  h_S50x2048 : 0 < S50x2048.numel
  shapeCasts_S50x2048_S50x2048 : S50x2048.ShapeCasts S50x2048
  h_S50x1024 : 0 < S50x1024.numel
  bitsLt_bf16_f32 : FTy.bits .bf16 < FTy.bits .f32
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S50x2048 : S1x2048.Broadcasts S50x2048
  dot_S50x1024_S2048x1024_S50x2048_1_1_0_0_n_n_wf : DotDims.WF S50x1024 S2048x1024 S50x2048 [1] [1] [0] [0] [] []
  hrank0 : 0 < grid0.rank
  k0_mult1_dvd : 1024 ∣ k0_mult1.toNat
  k0_off1_inb : ∀ (r : Fin 2), ∀ a, (k0_off1 (BitVec.ofNat 32 r.val)) a + S50x1024.size a ≤ S50x2048.size a
  k0_off2_inb : ∀ (r : Fin 2), ∀ a, (k0_off2 (BitVec.ofNat 32 r.val)) a + S2048x1024.size a ≤ S2048x2048.size a
  k0_mult2_dvd : 1024 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50x2048.size a ≤ S50x8192.size a
  hwx0_0 : ∀ i : grid0.Coords, EltTy.bits .f32 = 32 ∨ (Rect.block (s := S50x8192) S50x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x8192.size a
  hwx0_1 : ∀ i : grid0.Coords, EltTy.bits .f32 = 32 ∨ (Rect.block (s := S8192x8192) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S50x2048.size a ≤ S50x8192.size a
  hwx0_3 : ∀ i : grid0.Coords, EltTy.bits .f32 = 32 ∨ (Rect.block (s := S50x8192) S50x2048.size (cc0_transform_3 i) (hinb0_3 i)).WholeWords (EltTy.packing .f32)

variable [Facts₀]

def dot_S50x1024_S2048x1024_S50x2048_1_1_0_0_n_n : DotDims S50x1024 S2048x1024 S50x2048 where
  lhsContracting := [1]
  rhsContracting := [1]
  lhsNonContracting := [0]
  rhsNonContracting := [0]
  lhsBatch := []
  rhsBatch := []
  wf := dot_S50x1024_S2048x1024_S50x2048_1_1_0_0_n_n_wf

abbrev win0_0 : Pipeline.Window sig grid0 :=
  Pipeline.Window.ofSpec (Memref.whole main_arg0) S50x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S50x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S50x8192 : Shape := ⟨2, ![50, 8192]⟩
abbrev S8192x8192 : Shape := ⟨2, ![8192, 8192]⟩
abbrev S8192 : Shape := ⟨1, ![8192]⟩
abbrev S1x8192 : Shape := ⟨2, ![1, 8192]⟩

abbrev nBuf : Space → Nat
  | .hbm => 7
  | .vmem => 0
  | .smem => 0
  | _ => 0

abbrev bufTy : (tb : Table) → Fin (tcTables nBuf tb) → BufTy
  | .hbm, ⟨0, _⟩ => ⟨S50x8192, .f32⟩
  | .hbm, ⟨1, _⟩ => ⟨S8192x8192, .f32⟩
  | .hbm, ⟨2, _⟩ => ⟨S8192, .f32⟩
  | .hbm, ⟨3, _⟩ => ⟨S50x8192, .f32⟩
  | .hbm, ⟨4, _⟩ => ⟨S1x8192, .f32⟩
  | .hbm, ⟨5, _⟩ => ⟨S50x8192, .f32⟩
  | .hbm, ⟨6, _⟩ => ⟨S50x8192, .f32⟩
  | _, _ => ⟨S50x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S50x8192_0_1 : S1x8192.BroadcastsInDim S50x8192 (![0, 1] : Fin 2 → Fin S50x8192.rank)
  dot_S50x8192_S8192x8192_S50x8192_1_1_0_0_n_n_wf : DotDims.WF S50x8192 S8192x8192 S50x8192 [1] [1] [0] [0] [] []

variable [Facts₀]

def dot_S50x8192_S8192x8192_S50x8192_1_1_0_0_n_n : DotDims S50x8192 S8192x8192 S50x8192 where
  lhsContracting := [1]
  rhsContracting := [1]
  lhsNonContracting := [0]
  rhsNonContracting := [0]
  lhsBatch := []
  rhsBatch := []
  wf := dot_S50x8192_S8192x8192_S50x8192_1_1_0_0_n_n_wf

class Facts : Prop extends Facts₀ where

variable [Facts]
-- ==== Proof.Spec.lean ====
/-
  The function both programs compute. For a row `p` of `x` (50 × 8192) and a row `o` of `weight` (8192 × 8192)
  the result entry (p, o) is the sum over the 8192 shared columns `j` of `x[p, j] · weight[o, j]`, plus `bias[o]`.

  The kernel reaches that sum in eight steps of 1024 columns each, left to right, starting from zero; so the sum is
  stated here through its PREFIXES: `prefixSum … n` is the sum of the first `n` products. Two facts about prefixes
  are all the arithmetic the certificate needs, and both hold on the extended reals with no finiteness assumption,
  because addition there is associative and commutative with neutral element `0`:
    * a prefix grows by a chunk: the first `n + 1024` products are the first `n` plus the next 1024 (`prefixSum_add`);
    * the full prefix is the sum over all 8192 columns (`prefixSum_full`).
-/
import Idealize.ShloMosaic.PureOps.Ideal
import Idealize.ShloMosaic.Lib.ValueIdx

noncomputable section

namespace Cert.Linear

open Idealize.ShloMosaic Idealize.ShloMosaic.ValueIdx

/-- The shapes of `x` (and of the result), of `weight`, and of `bias`. -/
abbrev SX : Shape := ⟨2, ![50, 8192]⟩
abbrev SW : Shape := ⟨2, ![8192, 8192]⟩
abbrev SB : Shape := ⟨1, ![8192]⟩

variable (x : SX.Idx → EReal) (w : SW.Idx → EReal) (b : SB.Idx → EReal)

/-- The `j`-th product of row `p` of `x` against row `o` of `weight`; zero past the last shared column, so that
    the prefixes below can be taken over plain natural numbers. -/
def term (p : Fin 50) (o : Fin 8192) (j : ℕ) : EReal :=
  if h : j < 8192 then x (ix2 p ⟨j, h⟩) * w (ix2 o ⟨j, h⟩) else 0

theorem term_of_lt (p : Fin 50) (o : Fin 8192) (j : ℕ) (h : j < 8192) :
    term x w p o j = x (ix2 p ⟨j, h⟩) * w (ix2 o ⟨j, h⟩) := dif_pos h

/-- The sum of the first `n` products. -/
def prefixSum (p : Fin 50) (o : Fin 8192) (n : ℕ) : EReal := ∑ j ∈ Finset.range n, term x w p o j

/-- The result: the full sum of products, plus the bias entry of the output column. -/
def G : SX.Idx → EReal := fun i => prefixSum x w (i 0) (i 1) 8192 + b (ix1 (i 1))

theorem G_apply (p : Fin 50) (o : Fin 8192) : G x w b (ix2 p o) = prefixSum x w p o 8192 + b (ix1 o) := rfl

theorem prefixSum_zero (p : Fin 50) (o : Fin 8192) : prefixSum x w p o 0 = 0 := Finset.sum_range_zero _

/-- A prefix grows by a chunk of 1024 columns: whatever two families `u`, `v` the next 1024 products are written
    with (the kernel's are entries of two loaded half-blocks), the longer prefix is the shorter one plus their
    products' sum. -/
theorem prefixSum_add (p : Fin 50) (o : Fin 8192) (n : ℕ) (u v : Fin 1024 → EReal)
    (huv : ∀ j : Fin 1024, u j * v j = term x w p o (n + j.val)) :
    prefixSum x w p o (n + 1024) = prefixSum x w p o n + ∑ j : Fin 1024, u j * v j := by
  unfold prefixSum
  rw [Finset.sum_range_add, Finset.sum_range fun j => term x w p o (n + j)]
  exact congrArg _ (Finset.sum_congr rfl fun j _ => (huv j).symm)

/-- The full prefix is the sum over all the shared columns. -/
theorem prefixSum_full (p : Fin 50) (o : Fin 8192) :
    prefixSum x w p o 8192 = ∑ k : Fin 8192, x (ix2 p k) * w (ix2 o k) := by
  unfold prefixSum
  rw [Finset.sum_range fun j => term x w p o j]
  exact Finset.sum_congr rfl fun k _ => term_of_lt x w p o k.val k.isLt

end Cert.Linear

end
-- ==== Proof.RefSpec.lean ====
/-
  The reference computes the specification. Read at an entry (p, o), the reference's one contraction of `x` with
  `weight` along their column axes is the sum over the 8192 shared columns of `x[p, k] · weight[o, k]`, and its two
  broadcasts of `bias` (to a row, then down the 50 rows) read `bias[o]`; their sum is the specification's value there.
-/
import proofs.«115846_j30399778521256_2_alg».proof.Proof.Gen.ReferenceIdeal.Read
import proofs.«115846_j30399778521256_2_alg».proof.Proof.Spec

noncomputable section

open Idealize.ShloMosaic Idealize.ShloMosaic.ValueIdx

namespace Cert.ReferenceIdeal.RefValue

open Cert.ReferenceIdeal Cert.ReferenceIdeal.Read Cert.Linear

/-- The reference's result, as a function of its three arguments, is the specification `G` of them. -/
theorem result_eq (x : (⟨S50x8192, .f32⟩ : BufTy).Contents (Elt Ideal)) (w : (⟨S8192x8192, .f32⟩ : BufTy).Contents (Elt Ideal))
    (b : (⟨S8192, .f32⟩ : BufTy).Contents (Elt Ideal)) :
    val_main_v3 (F := Ideal) x w b = G x w b := by
  funext i
  obtain ⟨p, o, rfl⟩ : ∃ (p : Fin 50) (o : Fin 8192), i = ix2 p o := ⟨i 0, i 1, eq_ix2 i⟩
  have el : ∀ k : Fin 8192, lidx_main_v0 (ix2 p o) k = ix2 p k := fun k => funext fun a => Fin.ext (by
    match a with | ⟨0, _⟩ => rfl | ⟨1, _⟩ => rfl)
  have er : ∀ k : Fin 8192, ridx_main_v0 (ix2 p o) k = ix2 o k := fun k => funext fun a => Fin.ext (by
    match a with | ⟨0, _⟩ => rfl | ⟨1, _⟩ => rfl)
  have eb : idx_main_v1 (idx_main_v2 (ix2 p o)) = ix1 o := funext fun a => Fin.ext (by
    match a with | ⟨0, _⟩ => rfl)
  rw [val_main_v3_apply, val_main_v0_apply, val_main_v2_apply, val_main_v1_apply, G_apply, prefixSum_full]
  simp only [el, er, eb]
  rfl

end Cert.ReferenceIdeal.RefValue

end
-- ==== Proof.LibWholeStore.lean ====
/-
  A buffer stored WHOLE and then loaded WHOLE.

  A kernel body that keeps an accumulator in a scratch buffer stores the whole buffer several times and loads the whole
  buffer between the stores. Whatever the earlier stores were, a whole-buffer load after a whole-buffer store reads
  exactly that store's payload: the last store covers every index, so nothing older shows through.
-/
import Idealize.ShloMosaic.Lib.Pipeline.Value

noncomputable section

namespace Idealize.ShloMosaic.View

variable {Val : EltTy → Type} {S : Shape} {e : EltTy}

/-- A load through the whole-shape rectangle at zero offsets, of what a list of stores left whose LAST store (the head
    of the list) went through that same rectangle, reads the last store's payload — however many stores came before it
    and whatever they wrote. (The one-store case is the library's `readCov_unit_zero`.) -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KernelPieces.lean ====
/-
  What one run of the kernel body leaves behind, as values.

  At a grid point (i, k) the body holds a block of `x` (50 × 2048: columns 2048k … 2048k + 2047), a block of
  `weight` (2048 × 2048: rows 2048i …, the same columns), a block of the bias row (1 × 2048: columns 2048i …) and the
  accumulator scratch (50 × 2048). It cuts the two operand blocks into their LOW halves (columns 0 … 1023 of the block)
  and HIGH halves (columns 1024 … 2047), and does, in this order:
    * at k = 0 only: store zeros into the accumulator;
    * accumulator := accumulator + (low half of x) · (low half of weight)ᵀ;
    * accumulator := accumulator + (high half of x) · (high half of weight)ᵀ;
    * at k = 3 only: output block := accumulator + the bias row spread down the 50 rows.
  The three cases below (first point of a row of the grid, a middle point, the last point) say what the accumulator —
  and, at the last point, the output block — holds afterwards, as the body's own arithmetic terms applied to the halves
  and to what the accumulator held before. Every load and store of the accumulator goes through the whole buffer, so
  each load reads exactly what the store before it wrote.
-/
import proofs.«115846_j30399778521256_2_alg».proof.Proof.Gen.KernelIdeal.Frame
import proofs.«115846_j30399778521256_2_alg».proof.Proof.LibWholeStore
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The low and high halves (columns 0 … 1023 and 1024 … 2047) of a block of `x` and of a block of `weight`. -/
abbrev loX (x0 : Vec F S50x2048 .f32) : Vec F S50x1024 .f32 :=
  View.ld x0 (Rect.unit (s := S50x2048) ![0, 0] S50x1024.size (by decide))
abbrev hiX (x0 : Vec F S50x2048 .f32) : Vec F S50x1024 .f32 :=
  View.ld x0 (Rect.unit (s := S50x2048) ![0, 1024] S50x1024.size (by decide))
abbrev loW (x1 : Vec F S2048x2048 .f32) : Vec F S2048x1024 .f32 :=
  View.ld x1 (Rect.unit (s := S2048x2048) ![0, 0] S2048x1024.size (by decide))
abbrev hiW (x1 : Vec F S2048x2048 .f32) : Vec F S2048x1024 .f32 :=
  View.ld x1 (Rect.unit (s := S2048x2048) ![0, 1024] S2048x1024.size (by decide))

/-- The two accumulation steps of one body run, over what the accumulator held before them. -/
abbrev twoSteps (x0 : Vec F S50x2048 .f32) (x1 : Vec F S2048x2048 .f32) (acc : Vec F S50x2048 .f32) : Vec F S50x2048 .f32 :=
  k0_pay4 (hiX x0) (hiW x1) (k0_pay3 (loX x0) (loW x1) acc)

/-- A MIDDLE point (neither first nor last of its grid row): the accumulator ends at the two steps over what the point
    before left in it. -/
theorem sout_B (c : Dev nD) (i : grid0.Coords) (a2 : Memref sig .tc .vmem S50x2048 .f32) (h2 : a2.IsWhole) (a3 : Memref sig .tc .vmem S2048x2048 .f32) (h3 : a3.IsWhole) (a4 : Memref sig .tc .vmem S1x2048 .f32) (h4 : a4.IsWhole) (a5 : Memref sig .tc .vmem S50x2048 .f32) (h5 : a5.IsWhole) (a6 : Memref sig .tc .vmem S50x2048 .f32) (h6 : a6.IsWhole) (hc0 : ¬cond0_0 i) (hc1 : ¬cond0_1 i)
    (x0 : Vec F S50x2048 .f32) (x1 : Vec F S2048x2048 .f32) (x2 : Vec F S1x2048 .f32) (xs0 : Vec F S50x2048 .f32) :
    sout0_B_0 c i a2 h2 a3 h3 a4 h4 a5 h5 a6 h6 hc0 hc1 x0 x1 x2 xs0 = twoSteps x0 x1 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_cons_unit_zero (S := S50x2048) hz, View.readCov_unit_zero (S := S50x2048) _ hz]
  simp only [View.readAt_eq_ld, h2.read_unread, h3.read_unread, h6.read_unread, View.ld_unit_zero (S := S50x2048) hz]

/-- The FIRST point of a grid row: the accumulator is zeroed first, so it ends at the two steps over the zero block,
    whatever it held before. -/
theorem sout_A (c : Dev nD) (i : grid0.Coords) (a2 : Memref sig .tc .vmem S50x2048 .f32) (h2 : a2.IsWhole) (a3 : Memref sig .tc .vmem S2048x2048 .f32) (h3 : a3.IsWhole) (a4 : Memref sig .tc .vmem S1x2048 .f32) (h4 : a4.IsWhole) (a5 : Memref sig .tc .vmem S50x2048 .f32) (h5 : a5.IsWhole) (a6 : Memref sig .tc .vmem S50x2048 .f32) (h6 : a6.IsWhole) (hc0 : cond0_0 i) (hc1 : ¬cond0_1 i)
    (x0 : Vec F S50x2048 .f32) (x1 : Vec F S2048x2048 .f32) (x2 : Vec F S1x2048 .f32) :
    sout0_A_0 c i a2 h2 a3 h3 a4 h4 a5 h5 a6 h6 hc0 hc1 x0 x1 x2 = twoSteps x0 x1 (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S50x2048) hz, View.readCov_cons_unit_zero (S := S50x2048) _ hz,
    View.readCov_unit_zero (S := S50x2048) _ hz]
  simp only [View.readAt_eq_ld, h2.read_unread, h3.read_unread, View.ld_unit_zero (S := S50x2048) hz]

/-- The LAST point of a grid row: the accumulator ends as at a middle point, … -/
theorem sout_C (c : Dev nD) (i : grid0.Coords) (a2 : Memref sig .tc .vmem S50x2048 .f32) (h2 : a2.IsWhole) (a3 : Memref sig .tc .vmem S2048x2048 .f32) (h3 : a3.IsWhole) (a4 : Memref sig .tc .vmem S1x2048 .f32) (h4 : a4.IsWhole) (a5 : Memref sig .tc .vmem S50x2048 .f32) (h5 : a5.IsWhole) (a6 : Memref sig .tc .vmem S50x2048 .f32) (h6 : a6.IsWhole) (hc0 : ¬cond0_0 i) (hc1 : cond0_1 i)
    (x0 : Vec F S50x2048 .f32) (x1 : Vec F S2048x2048 .f32) (x2 : Vec F S1x2048 .f32) (xs0 : Vec F S50x2048 .f32) :
    sout0_C_0 c i a2 h2 a3 h3 a4 h4 a5 h5 a6 h6 hc0 hc1 x0 x1 x2 xs0 = twoSteps x0 x1 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_cons_unit_zero (S := S50x2048) hz, View.readCov_unit_zero (S := S50x2048) _ hz]
  simp only [View.readAt_eq_ld, h2.read_unread, h3.read_unread, h6.read_unread, View.ld_unit_zero (S := S50x2048) hz]

/-- … and the output block is that accumulator plus the bias row. -/
theorem out_C (c : Dev nD) (i : grid0.Coords) (a2 : Memref sig .tc .vmem S50x2048 .f32) (h2 : a2.IsWhole) (a3 : Memref sig .tc .vmem S2048x2048 .f32) (h3 : a3.IsWhole) (a4 : Memref sig .tc .vmem S1x2048 .f32) (h4 : a4.IsWhole) (a5 : Memref sig .tc .vmem S50x2048 .f32) (h5 : a5.IsWhole) (a6 : Memref sig .tc .vmem S50x2048 .f32) (h6 : a6.IsWhole) (hc0 : ¬cond0_0 i) (hc1 : cond0_1 i)
    (x0 : Vec F S50x2048 .f32) (x1 : Vec F S2048x2048 .f32) (x2 : Vec F S1x2048 .f32) (xs0 : Vec F S50x2048 .f32) :
    out0_C_3 c i a2 h2 a3 h3 a4 h4 a5 h5 a6 h6 hc0 hc1 x0 x1 x2 xs0 = k0_pay1 (twoSteps x0 x1 xs0) x2 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero (S := S50x2048) hz, View.readCov_cons_unit_zero (S := S50x2048) _ hz,
    View.readCov_unit_zero (S := S50x2048) _ hz]
  simp only [View.readAt_eq_ld, h2.read_unread, h3.read_unread, h4.read_unread, h6.read_unread,
    View.ld_unit_zero (S := S50x2048) hz, View.ld_unit_zero (S := S1x2048) hz]

end Cert.KernelIdeal.Pieces

end
-- ==== Proof.KernelPay.lean ====
/-
  The body's arithmetic, read at one entry, on the extended reals.

  There every float is an exact extended real, a change of float format is the identity, and the matrix unit's product
  into a zero accumulator is a plain sum of products. So at an entry (p, q) of the 50 × 2048 accumulator:
    * the reset stores `0`;
    * one accumulation step adds, to what the accumulator held at (p, q), the sum over the 1024 columns `j` of a half
      of (row p of the `x` half at column j) · (row q of the `weight` half at column j): both operands are contracted
      along their column axis, so no transposed copy appears;
    * the final step adds the bias row's entry `q` to every row `p`.
-/
import proofs.«115846_j30399778521256_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Pay

open Cert.KernelIdeal Cert.KernelIdeal.Gen

/-- The half-product's dimension record: a 50 × 1024 operand against a 2048 × 1024 operand, both contracted along
    their second axis, into 50 × 2048. -/
abbrev dims : DotDims S50x1024 S2048x1024 S50x2048 := dot_S50x1024_S2048x1024_S50x2048_1_1_0_0_n_n

/-- Where the half-product reads its operands for output entry `i` and contraction index `k`: the left operand at
    (row of `i`, `k`), the right operand at (column of `i`, `k`). -/
theorem lhs_row (i : S50x2048.Idx) (k : dims.contr.Idx) : (dims.lhsIdx i k 0).val = (i 0).val := by
  unfold DotDims.lhsIdx
  rw [dif_neg (show ¬(0 : Fin S50x1024.rank) ∈ dims.lhsBatch by decide), dif_pos (show (0 : Fin S50x1024.rank) ∈ dims.lhsNonContracting by decide)]
  rfl
theorem lhs_col (i : S50x2048.Idx) (k : dims.contr.Idx) : (dims.lhsIdx i k 1).val = (k ⟨0, by decide⟩).val :=
  dims.lhsIdx_val_of_single rfl i k
theorem rhs_row (i : S50x2048.Idx) (k : dims.contr.Idx) : (dims.rhsIdx i k 0).val = (i 1).val := by
  unfold DotDims.rhsIdx
  rw [dif_neg (show ¬(0 : Fin S2048x1024.rank) ∈ dims.rhsBatch by decide), dif_pos (show (0 : Fin S2048x1024.rank) ∈ dims.rhsNonContracting by decide)]
  rfl
theorem rhs_col (i : S50x2048.Idx) (k : dims.contr.Idx) : (dims.rhsIdx i k 1).val = (k ⟨0, by decide⟩).val :=
  dims.rhsIdx_val_of_single rfl i k

/-- A half-product into the zero accumulator, at entry (p, q): the sum over the 1024 columns of the two rows' products. -/
theorem halfProduct_apply {φ₁ φ₂ : FTy} (a : FVec Ideal S50x1024 φ₁) (bm : FVec Ideal S2048x1024 φ₂) (p : Fin 50) (q : Fin 2048) :
    FloatOps.matmul dims none a bm (constant (F := Ideal) S50x2048 .f32 0x00000000#32) (ix2 p q)
      = ∑ j : Fin 1024, a (ix2 p j) * bm (ix2 q j) := by
  rw [Ideal.matmul_constant_zero_apply, ← Equiv.sum_comp (contrEquiv1 dims 1024 rfl rfl).symm]
  refine Finset.sum_congr rfl fun k _ => ?_
  have hk := contrEquiv1_symm_val dims 1024 rfl rfl k
  have el : dims.lhsIdx (ix2 p q) ((contrEquiv1 dims 1024 rfl rfl).symm k) = ix2 p k := funext fun ax => Fin.ext (by
    match ax with
    | ⟨0, _⟩ => exact lhs_row _ _
    | ⟨1, _⟩ => exact (lhs_col _ _).trans hk)
  have er : dims.rhsIdx (ix2 p q) ((contrEquiv1 dims 1024 rfl rfl).symm k) = ix2 q k := funext fun ax => Fin.ext (by
    match ax with
    | ⟨0, _⟩ => exact rhs_row _ _
    | ⟨1, _⟩ => exact (rhs_col _ _).trans hk)
  rw [el, er]

/-- The reset's block is zero everywhere. -/
theorem reset_apply (j : S50x2048.Idx) : k0_pay2 (F := Ideal) j = 0 := by
  unfold k0_pay2
  rw [shapeCast_self]
  exact Ideal.ofBits_zero_f32

/-- The first accumulation step at entry (p, q). -/
theorem step1_apply (a : FVec Ideal S50x1024 .f32) (bm : FVec Ideal S2048x1024 .f32) (acc : FVec Ideal S50x2048 .f32)
    (p : Fin 50) (q : Fin 2048) :
    k0_pay3 (F := Ideal) a bm acc (ix2 p q) = acc (ix2 p q) + ∑ j : Fin 1024, a (ix2 p j) * bm (ix2 q j) := by
  unfold k0_pay3
  rw [shapeCast_self]
  exact congrArg (acc (ix2 p q) + ·) (halfProduct_apply (truncf .bf16 a bitsLt_bf16_f32) (truncf .bf16 bm bitsLt_bf16_f32) p q)

/-- The second accumulation step at entry (p, q): the same arithmetic. -/
theorem step2_apply (a : FVec Ideal S50x1024 .f32) (bm : FVec Ideal S2048x1024 .f32) (acc : FVec Ideal S50x2048 .f32)
    (p : Fin 50) (q : Fin 2048) :
    k0_pay4 (F := Ideal) a bm acc (ix2 p q) = acc (ix2 p q) + ∑ j : Fin 1024, a (ix2 p j) * bm (ix2 q j) := by
  unfold k0_pay4
  rw [shapeCast_self]
  exact congrArg (acc (ix2 p q) + ·) (halfProduct_apply (truncf .bf16 a bitsLt_bf16_f32) (truncf .bf16 bm bitsLt_bf16_f32) p q)

/-- The final step at entry (p, q): the accumulator there plus the bias row's entry `q`. -/
theorem addBias_apply (acc : FVec Ideal S50x2048 .f32) (bb : FVec Ideal S1x2048 .f32) (p : Fin 50) (q : Fin 2048) :
    k0_pay1 (F := Ideal) acc bb (ix2 p q) = acc (ix2 p q) + bb (ix2 (0 : Fin 1) q) := by
  unfold k0_pay1
  rw [shapeCast_self]
  exact congrArg (acc (ix2 p q) + ·) (broadcastTo_1b_ab_apply bb broadcasts_S1x2048_S50x2048 p q)

end Cert.KernelIdeal.Pay

end
-- ==== Proof.KernelBlocks.lean ====
/-
  Where the body's operands sit in the whole arrays.

  The 16 grid points run in row-major order over a 4 × 4 grid: point `t` is (i, k) = (t / 4, t % 4). At that point
    * the `x` block is columns 2048k … 2048k + 2047 of all 50 rows of `x`;
    * the `weight` block is rows 2048i … 2048i + 2047 and the same columns of `weight`;
    * the bias block is columns 2048i … 2048i + 2047 of `bias` set up as one row;
  so entry (p, j) of the low (high) half of the `x` block is `x[p, 2048k + j]` (`x[p, 2048k + 1024 + j]`), and
  likewise for `weight`. A block's coordinate in its array is always (block index) × (block size) + (coordinate
  inside the block); the block indices are decided once over the grid.
-/
import proofs.«115846_j30399778521256_2_alg».proof.Proof.Gen.KernelIdeal.Frame
import proofs.«115846_j30399778521256_2_alg».proof.Proof.KernelPieces
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces

variable {F : FTy → Type} [FloatOps F]
variable (m : (ℓ : Loc nD τ sig) → Buf (Elt F) ℓ)

/-! ## The block indices, decided over the grid -/

theorem index_x : ∀ t : Fin cfg0.N, win0_0.index t (0 : Fin 2) = 0 ∧ win0_0.index t (1 : Fin 2) = t.val % 4 :=
  (by decide +kernel : ∀ t : Fin grid0.N, _)
theorem index_w : ∀ t : Fin cfg0.N, win0_1.index t (0 : Fin 2) = t.val / 4 ∧ win0_1.index t (1 : Fin 2) = t.val % 4 :=
  (by decide +kernel : ∀ t : Fin grid0.N, _)
theorem index_b : ∀ t : Fin cfg0.N, win0_2.index t (0 : Fin 2) = 0 ∧ win0_2.index t (1 : Fin 2) = t.val / 4 :=
  (by decide +kernel : ∀ t : Fin grid0.N, _)
theorem index_o : ∀ t : Fin cfg0.N, win0_3.index t (0 : Fin 2) = 0 ∧ win0_3.index t (1 : Fin 2) = t.val / 4 :=
  (by decide +kernel : ∀ t : Fin grid0.N, _)

/-! ## The halves of a block -/

theorem loX_apply (X : Vec F S50x2048 .f32) (p : Fin 50) (j : Fin 1024) :
    loX X (ix2 p j) = X (ix2 p ⟨j.val, by omega⟩) :=
  congrArg X (funext fun a => Fin.ext (by
    match a with
    | ⟨0, _⟩ => show 0 + 1 * p.val = p.val; omega
    | ⟨1, _⟩ => show 0 + 1 * j.val = j.val; omega))
theorem hiX_apply (X : Vec F S50x2048 .f32) (p : Fin 50) (j : Fin 1024) :
    hiX X (ix2 p j) = X (ix2 p ⟨1024 + j.val, by omega⟩) :=
  congrArg X (funext fun a => Fin.ext (by
    match a with
    | ⟨0, _⟩ => show 0 + 1 * p.val = p.val; omega
    | ⟨1, _⟩ => show 1024 + 1 * j.val = 1024 + j.val; omega))
theorem loW_apply (X : Vec F S2048x2048 .f32) (q : Fin 2048) (j : Fin 1024) :
    loW X (ix2 q j) = X (ix2 q ⟨j.val, by omega⟩) :=
  congrArg X (funext fun a => Fin.ext (by
    match a with
    | ⟨0, _⟩ => show 0 + 1 * q.val = q.val; omega
    | ⟨1, _⟩ => show 0 + 1 * j.val = j.val; omega))
theorem hiW_apply (X : Vec F S2048x2048 .f32) (q : Fin 2048) (j : Fin 1024) :
    hiW X (ix2 q j) = X (ix2 q ⟨1024 + j.val, by omega⟩) :=
  congrArg X (funext fun a => Fin.ext (by
    match a with
    | ⟨0, _⟩ => show 0 + 1 * q.val = q.val; omega
    | ⟨1, _⟩ => show 1024 + 1 * j.val = 1024 + j.val; omega))

/-! ## The blocks in the arrays -/

/-- Entry (p, k) of the `x` block at point `t` is `x[p, 2048·(t % 4) + k]`. -/
theorem xblk_apply (c : Dev nD) (t : Fin cfg0.N) (p : Fin 50) (k : Fin 2048) :
    (iblk m c 0 t : Vec F S50x2048 .f32) (ix2 p k)
      = m ((c : Thread nD τ).loc main_arg0) (ix2 p ⟨2048 * (t.val % 4) + k.val, by omega⟩) := by
  have hi := index_x t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 50 + 1 * p.val = p.val; rw [hi.1]; omega
  | ⟨1, _⟩ => show win0_0.index t 1 * 2048 + 1 * k.val = 2048 * (t.val % 4) + k.val; rw [hi.2]; omega

/-- Entry (q, k) of the `weight` block at point `t` is `weight[2048·(t / 4) + q, 2048·(t % 4) + k]`. -/
theorem wblk_apply (c : Dev nD) (t : Fin cfg0.N) (q : Fin 2048) (k : Fin 2048) :
    (iblk m c 1 t : Vec F S2048x2048 .f32) (ix2 q k)
      = m ((c : Thread nD τ).loc main_arg1)
          (ix2 ⟨2048 * (t.val / 4) + q.val, by have := lt_of_lt_of_eq t.isLt (show cfg0.N = 16 from N_0); omega⟩
            ⟨2048 * (t.val % 4) + k.val, by omega⟩) := by
  have hi := index_w t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2048 + 1 * q.val = 2048 * (t.val / 4) + q.val; rw [hi.1]; omega
  | ⟨1, _⟩ => show win0_1.index t 1 * 2048 + 1 * k.val = 2048 * (t.val % 4) + k.val; rw [hi.2]; omega

/-- The bias row the region finds: `bias` set up as a 1 × 8192 array by the one operation before the region. -/
theorem V_bias (c : Dev nD) :
    (V m c main_v0 : S1x8192.Idx → Elt F .f32)
      = shapeCast S1x8192 (m ((c : Thread nD τ).loc main_arg2)) shapeCasts_S8192_S1x8192 := by
  dsimp only [V, hostOps0]; after_results; rfl

/-- Entry (0, q) of the bias block at point `t` is `bias[2048·(t / 4) + q]`. -/
theorem bblk_apply (c : Dev nD) (t : Fin cfg0.N) (q : Fin 2048) :
    (iblk m c 2 t : Vec F S1x2048 .f32) (ix2 (0 : Fin 1) q)
      = m ((c : Thread nD τ).loc main_arg2)
          (ix1 ⟨2048 * (t.val / 4) + q.val, by have := lt_of_lt_of_eq t.isLt (show cfg0.N = 16 from N_0); omega⟩) := by
  have hi := index_b t
  unfold iblk
  rw [View.read_apply]
  show V m c main_v0 _ = _
  rw [V_bias]
  refine (congrArg (shapeCast S1x8192 (m ((c : Thread nD τ).loc main_arg2)) shapeCasts_S8192_S1x8192)
    (funext fun a => Fin.ext ?_ : _ = ix2 (0 : Fin 1) (⟨2048 * (t.val / 4) + q.val, by have := lt_of_lt_of_eq t.isLt (show cfg0.N = 16 from N_0); omega⟩ : Fin 8192))).trans
    (shapeCast_a_1a_apply _ _ _ _)
  match a with
  | ⟨0, _⟩ => show win0_2.index t 0 * 1 + 1 * 0 = 0; rw [hi.1]
  | ⟨1, _⟩ => show win0_2.index t 1 * 2048 + 1 * q.val = 2048 * (t.val / 4) + q.val; rw [hi.2]; omega

end Cert.KernelIdeal.Blocks

end
-- ==== Proof.KernelAcc.lean ====
/-
  What the accumulator holds after every grid point, and what the last point of each grid row writes out.

  Point `t` of the 16 is (i, k) = (t / 4, t % 4). Fix an entry (p, q) of the 50 × 2048 accumulator and let
  `o = 2048i + q` be the output column it stands for. The claim, by induction on the point: after point `t` the
  accumulator's entry (p, q) is the sum of the first `2048k + 2048` products `x[p, j] · weight[o, j]`.
    * At k = 0 the accumulator is zeroed, which is the empty prefix; at k > 0 the point before belongs to the same grid
      row `i` and left the first `2048k` products.
    * The two accumulation steps add the products of columns 2048k … 2048k + 1023 and 2048k + 1024 … 2048k + 2047: the
      entries of the low and high halves of the `x` and `weight` blocks at this point are exactly those columns.
  At k = 3 the prefix is the whole sum over 8192 columns, and the point writes out that sum plus `bias[o]`: the
  specification's value at (p, o).
-/
import proofs.«115846_j30399778521256_2_alg».proof.Proof.Gen.KernelIdeal.Frame
import proofs.«115846_j30399778521256_2_alg».proof.Proof.KernelPieces
import proofs.«115846_j30399778521256_2_alg».proof.Proof.KernelPay
import proofs.«115846_j30399778521256_2_alg».proof.Proof.KernelBlocks
import proofs.«115846_j30399778521256_2_alg».proof.Proof.Spec

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Pieces Cert.KernelIdeal.Pay Cert.KernelIdeal.Blocks Cert.Linear

/-! ## The three kinds of point, in terms of the body's arithmetic (any float instance) -/

section AnyInstance

variable {F : FTy → Type} [FloatOps F]
variable (m : (ℓ : Loc nD τ sig) → Buf (Elt F) ℓ)

/-- After the first point of a grid row the accumulator holds the two steps over the zero block. -/
theorem scratch_first (c : Dev nD) (t : Fin cfg0.N) (h0 : t.val % 4 = 0) (h1 : ¬t.val % 4 = 3) :
    (outsAt0 m c t.val t.isLt).2 = twoSteps (iblk m c 0 t) (iblk m c 1 t) (k0_pay2 (F := F)) := by
  rw [outsAt0_A m c t h0 h1]
  dsimp only
  exact sout_A (F := F) c (grid0.coords t) (ms0_0 t) (hs0_0 t) (ms0_1 t) (hs0_1 t) (ms0_2 t) (hs0_2 t) (ms0_3 t) (hs0_3 t) scM0_0 (Memref.isWhole_whole cc0_scratch0) ((hcond0_0 t).mpr h0) (fun h => h1 ((hcond0_1 t).mp h)) (iblk m c 0 t) (iblk m c 1 t) (iblk m c 2 t)

/-- After a middle point it holds the two steps over what the point before left. -/
theorem scratch_mid (c : Dev nD) (t : Fin cfg0.N) (h0 : ¬t.val % 4 = 0) (h1 : ¬t.val % 4 = 3) :
    (outsAt0 m c t.val t.isLt).2
      = twoSteps (iblk m c 0 t) (iblk m c 1 t) (outsAt0 m c (t.val - 1) (Nat.lt_of_le_of_lt (Nat.sub_le _ _) t.isLt)).2 := by
  rw [outsAt0_B m c t h0 h1]
  dsimp only
  exact sout_B (F := F) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- After the last point of a grid row likewise, … -/
theorem scratch_last (c : Dev nD) (t : Fin cfg0.N) (h0 : ¬t.val % 4 = 0) (h1 : t.val % 4 = 3) :
    (outsAt0 m c t.val t.isLt).2
      = twoSteps (iblk m c 0 t) (iblk m c 1 t) (outsAt0 m c (t.val - 1) (Nat.lt_of_le_of_lt (Nat.sub_le _ _) t.isLt)).2 := by
  rw [outsAt0_C m c t h0 h1]
  dsimp only
  exact sout_C (F := F) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- … and the output block is that accumulator plus the bias block's row. -/
theorem out_last (c : Dev nD) (t : Fin cfg0.N) (h0 : ¬t.val % 4 = 0) (h1 : t.val % 4 = 3) :
    (outsAt0 m c t.val t.isLt).1
      = k0_pay1 (twoSteps (iblk m c 0 t) (iblk m c 1 t) (outsAt0 m c (t.val - 1) (Nat.lt_of_le_of_lt (Nat.sub_le _ _) t.isLt)).2)
          (iblk m c 2 t) := by
  rw [outsAt0_C m c t h0 h1]
  dsimp only
  exact out_C (F := F) c (grid0.coords t) (ms0_0 t) (hs0_0 t) (ms0_1 t) (hs0_1 t) (ms0_2 t) (hs0_2 t) (ms0_3 t) (hs0_3 t) scM0_0 (Memref.isWhole_whole cc0_scratch0) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end AnyInstance

/-! ## On the extended reals: prefixes of the sum -/

/-- The two accumulation steps take the prefix of length `s` to the prefix of length `s + 2048`, when the low halves
    hold the products' factors for columns `s … s + 1023` and the high halves those for `s + 1024 … s + 2047`. -/
theorem twoSteps_apply (x : SX.Idx → EReal) (w : SW.Idx → EReal)
    (X0 : FVec Ideal S50x2048 .f32) (X1 : FVec Ideal S2048x2048 .f32) (acc : FVec Ideal S50x2048 .f32)
    (p : Fin 50) (q : Fin 2048) (o : Fin 8192) (s : ℕ)
    (hlo : ∀ j : Fin 1024, loX (F := Ideal) X0 (ix2 p j) * loW (F := Ideal) X1 (ix2 q j) = term x w p o (s + j.val))
    (hhi : ∀ j : Fin 1024, hiX (F := Ideal) X0 (ix2 p j) * hiW (F := Ideal) X1 (ix2 q j) = term x w p o (s + 1024 + j.val))
    (hacc : acc (ix2 p q) = prefixSum x w p o s) :
    twoSteps (F := Ideal) X0 X1 acc (ix2 p q) = prefixSum x w p o (s + 2048) := by
  show k0_pay4 (F := Ideal) (hiX X0) (hiW X1) (k0_pay3 (F := Ideal) (loX X0) (loW X1) acc) (ix2 p q) = _
  rw [step2_apply, step1_apply, hacc, show s + 2048 = s + 1024 + 1024 by omega,
    prefixSum_add x w p o (s + 1024) (fun j => hiX (F := Ideal) X0 (ix2 p j)) (fun j => hiW (F := Ideal) X1 (ix2 q j)) hhi,
    prefixSum_add x w p o s (fun j => loX (F := Ideal) X0 (ix2 p j)) (fun j => loW (F := Ideal) X1 (ix2 q j)) hlo]

section AtIdeal

variable (m : (ℓ : Loc nD τ sig) → Buf (Elt Ideal) ℓ)

/-- The three argument arrays as launched. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- At point `t`, the low halves' entries are the factors of the products for columns `2048·(t % 4) + j`, … -/
theorem lo_term (c : Dev nD) (t : Fin cfg0.N) (p : Fin 50) (q : Fin 2048) (o : Fin 8192)
    (ho : o.val = 2048 * (t.val / 4) + q.val) (j : Fin 1024) :
    loX (F := Ideal) (iblk m c 0 t) (ix2 p j) * loW (F := Ideal) (iblk m c 1 t) (ix2 q j)
      = term (argX m c) (argW m c) p o (2048 * (t.val % 4) + j.val) := by
  have hN := lt_of_lt_of_eq t.isLt (show cfg0.N = 16 from N_0)
  have hb : 2048 * (t.val / 4) + q.val < 8192 := by clear ho; omega
  obtain rfl : o = ⟨2048 * (t.val / 4) + q.val, hb⟩ := Fin.ext ho
  rw [term_of_lt _ _ _ _ _ (by omega)]
  exact congrArg₂ (· * ·) ((loX_apply (iblk m c 0 t) p j).trans (xblk_apply m c t p ⟨j.val, by omega⟩))
    ((loW_apply (iblk m c 1 t) q j).trans (wblk_apply m c t q ⟨j.val, by omega⟩))

/-- … and the high halves' those for columns `2048·(t % 4) + 1024 + j`. -/
theorem hi_term (c : Dev nD) (t : Fin cfg0.N) (p : Fin 50) (q : Fin 2048) (o : Fin 8192)
    (ho : o.val = 2048 * (t.val / 4) + q.val) (j : Fin 1024) :
    hiX (F := Ideal) (iblk m c 0 t) (ix2 p j) * hiW (F := Ideal) (iblk m c 1 t) (ix2 q j)
      = term (argX m c) (argW m c) p o (2048 * (t.val % 4) + 1024 + j.val) := by
  have hN := lt_of_lt_of_eq t.isLt (show cfg0.N = 16 from N_0)
  have hb : 2048 * (t.val / 4) + q.val < 8192 := by clear ho; omega
  obtain rfl : o = ⟨2048 * (t.val / 4) + q.val, hb⟩ := Fin.ext ho
  rw [show 2048 * (t.val % 4) + 1024 + j.val = 2048 * (t.val % 4) + (1024 + j.val) by omega, term_of_lt _ _ _ _ _ (by omega)]
  exact congrArg₂ (· * ·) ((hiX_apply (iblk m c 0 t) p j).trans (xblk_apply m c t p ⟨1024 + j.val, by omega⟩))
    ((hiW_apply (iblk m c 1 t) q j).trans (wblk_apply m c t q ⟨1024 + j.val, by omega⟩))

/-- One body run at point `t` takes the prefix of length `2048·(t % 4)` to the one 2048 longer. -/
theorem step_eq (c : Dev nD) (t : Fin cfg0.N) (acc : FVec Ideal S50x2048 .f32) (p : Fin 50) (q : Fin 2048) (o : Fin 8192)
    (ho : o.val = 2048 * (t.val / 4) + q.val)
    (hacc : acc (ix2 p q) = prefixSum (argX m c) (argW m c) p o (2048 * (t.val % 4))) :
    twoSteps (F := Ideal) (iblk m c 0 t) (iblk m c 1 t) acc (ix2 p q)
      = prefixSum (argX m c) (argW m c) p o (2048 * (t.val % 4) + 2048) :=
  twoSteps_apply (argX m c) (argW m c) (iblk m c 0 t) (iblk m c 1 t) acc p q o (2048 * (t.val % 4))
    (lo_term m c t p q o ho) (hi_term m c t p q o ho) hacc

/-- THE INVARIANT: after point `n` the accumulator's entry (p, q) is the prefix of length `2048·(n % 4) + 2048` of the
    products for output column `o = 2048·(n / 4) + q` — by induction on the point. -/
theorem scratch_eq (c : Dev nD) (n : ℕ) : ∀ (h : n < cfg0.N) (p : Fin 50) (q : Fin 2048) (o : Fin 8192),
    o.val = 2048 * (n / 4) + q.val →
    (outsAt0 m c n h).2 (ix2 p q) = prefixSum (argX m c) (argW m c) p o (2048 * (n % 4) + 2048) := by
  induction n with
  | zero =>
    intro h p q o ho
    refine (congrFun (scratch_first m c ⟨0, h⟩ rfl (by show ¬(0 % 4 = 3); decide)) (ix2 p q)).trans ?_
    exact step_eq m c ⟨0, h⟩ (k0_pay2 (F := Ideal)) p q o ho ((reset_apply _).trans (prefixSum_zero _ _ p o).symm)
  | succ n ih =>
    intro h p q o ho
    have hN : n + 1 < 16 := lt_of_lt_of_eq h (show cfg0.N = 16 from N_0)
    by_cases h0 : (n + 1) % 4 = 0
    · have h1 : ¬(n + 1) % 4 = 3 := by omega
      refine (congrFun (scratch_first m c ⟨n + 1, h⟩ h0 h1) (ix2 p q)).trans ?_
      refine step_eq m c ⟨n + 1, h⟩ (k0_pay2 (F := Ideal)) p q o ho ((reset_apply _).trans ?_)
      show (0 : EReal) = prefixSum (argX m c) (argW m c) p o (2048 * ((n + 1) % 4))
      rw [h0]
      exact (prefixSum_zero _ _ p o).symm
    · have hacc : (outsAt0 m c n (Nat.lt_of_succ_lt h)).2 (ix2 p q)
          = prefixSum (argX m c) (argW m c) p o (2048 * ((n + 1) % 4)) := by
        rw [ih (Nat.lt_of_succ_lt h) p q o (by omega), show 2048 * (n % 4) + 2048 = 2048 * ((n + 1) % 4) by omega]
      by_cases h1 : (n + 1) % 4 = 3
      · refine (congrFun (scratch_last m c ⟨n + 1, h⟩ h0 h1) (ix2 p q)).trans ?_
        exact step_eq m c ⟨n + 1, h⟩ (outsAt0 m c n (Nat.lt_of_succ_lt h)).2 p q o ho hacc
      · refine (congrFun (scratch_mid m c ⟨n + 1, h⟩ h0 h1) (ix2 p q)).trans ?_
        exact step_eq m c ⟨n + 1, h⟩ (outsAt0 m c n (Nat.lt_of_succ_lt h)).2 p q o ho hacc

/-- WHAT THE LAST POINT OF A GRID ROW WRITES OUT: at entry (p, q) of the output block, the specification's value at
    (p, o) for the output column `o = 2048·(t / 4) + q`. -/
theorem out_eq (c : Dev nD) (t : Fin cfg0.N) (h1 : t.val % 4 = 3) (p : Fin 50) (q : Fin 2048) (o : Fin 8192)
    (ho : o.val = 2048 * (t.val / 4) + q.val) :
    (outsAt0 m c t.val t.isLt).1 (ix2 p q) = G (argX m c) (argW m c) (argB m c) (ix2 p o) := by
  have hN := lt_of_lt_of_eq t.isLt (show cfg0.N = 16 from N_0)
  have h0 : ¬t.val % 4 = 0 := by omega
  have hprev := scratch_eq m c (t.val - 1) (Nat.lt_of_le_of_lt (Nat.sub_le _ _) t.isLt) p q o (by omega)
  have hstep := step_eq m c t (outsAt0 m c (t.val - 1) (Nat.lt_of_le_of_lt (Nat.sub_le _ _) t.isLt)).2 p q o ho
    (hprev.trans (congrArg (prefixSum (argX m c) (argW m c) p o) (by omega)))
  refine (congrFun (out_last m c t h0 h1) (ix2 p q)).trans ?_
  refine (addBias_apply _ (iblk m c 2 t) p q).trans ?_
  rw [G_apply]
  refine congrArg₂ (· + ·) (hstep.trans (congrArg (prefixSum (argX m c) (argW m c) p o) (by omega))) ?_
  have hb : 2048 * (t.val / 4) + q.val < 8192 := by clear ho; omega
  obtain rfl : o = ⟨2048 * (t.val / 4) + q.val, hb⟩ := Fin.ext ho
  exact bblk_apply m c t q

end AtIdeal

end Cert.KernelIdeal.Acc

end
-- ==== Proof.KernelResult.lean ====
/-
  From the blocks written out to the whole result array.

  The output window's block at point (i, k) is columns 2048i … 2048i + 2047 of all 50 rows, and it is written back
  only after the last point k = 3 of each grid row. What is written back there is the specification's values on that
  block; the four blocks written back (i = 0, 1, 2, 3) tile the 50 × 8192 result, so the result array ends holding the
  specification everywhere.
-/
import proofs.«115846_j30399778521256_2_alg».proof.Proof.Gen.KernelIdeal.Value
import proofs.«115846_j30399778521256_2_alg».proof.Proof.KernelAcc

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Acc Cert.Linear

variable (m : (ℓ : Loc nD τ sig) → Buf (Elt Ideal) ℓ) (ρ : Dev nD → PrngReg)

/-- The specification of the three argument arrays as launched, as contents of the result array. -/
abbrev spec (c : Dev nD) : Buf (Elt Ideal) ((c : Thread nD τ).loc main_v1) := G (argX m c) (argW m c) (argB m c)

/-- WHAT A WRITE-BACK WRITES: at a point that writes the output block back (the last of its grid row), the block is the
    specification read through the block's place in the result array. -/
theorem flushed_eq (c : Dev nD) (t : Fin cfg0.N) (hf : (cfg0.win 3).flush t = true) :
    (dats m 0 c).flushed 3 t = ((cfg0.win 3).blk t).view.read (Elt Ideal) (spec m c) := by
  have h1 : t.val % 4 = 3 := (flush0_3 t).mp hf
  have hN := lt_of_lt_of_eq t.isLt (show cfg0.N = 16 from N_0)
  have hi := index_o t
  rw [Cert.KernelIdeal.Value.flushed3]
  show (outsAt0 m c t.val t.isLt).1 = _
  funext (y : S50x2048.Idx)
  obtain ⟨p, q, rfl⟩ : ∃ (p : Fin 50) (q : Fin 2048), y = ix2 p q := ⟨y 0, y 1, eq_ix2 y⟩
  rw [View.read_apply]
  show (outsAt0 m c t.val t.isLt).1 (ix2 p q) = spec m c (((cfg0.win 3).blk t).view.emb (ix2 p q))
  have he : ((cfg0.win 3).blk t).view.emb (ix2 p q)
      = ix2 p (⟨2048 * (t.val / 4) + q.val, by omega⟩ : Fin 8192) := funext fun a => Fin.ext (by
    match a with
    | ⟨0, _⟩ => show win0_3.index t 0 * 50 + 1 * p.val = p.val; rw [hi.1]; omega
    | ⟨1, _⟩ => show win0_3.index t 1 * 2048 + 1 * q.val = 2048 * (t.val / 4) + q.val; rw [hi.2]; omega)
  rw [he]
  exact out_eq m c t h1 p q _ rfl

/-- THE RESULT ARRAY after the run is the specification: column `o` lies in the block written back after point
    `4·(o / 2048) + 3`. -/
theorem final (c : Dev nD) : (dats m 0 c).arrAt 3 cfg0.N = spec m c :=
  (dats m 0 c).arrAt_eq_of_cover 3 (spec m c) (flushed_eq m c) fun i => by
    have hi0 : (i 0).val < 50 := (i 0).isLt
    have hi1 : (i 1).val < 8192 := (i 1).isLt
    have hN : cfg0.N = 16 := N_0
    obtain ⟨t, ht⟩ : ∃ t : Fin cfg0.N, t.val = 4 * ((i 1).val / 2048) + 3 := ⟨⟨4 * ((i 1).val / 2048) + 3, by omega⟩, rfl⟩
    have hi := index_o t
    refine ⟨t, (flush0_3 t).mpr (by omega), ?_⟩
    show i ∈ ((View.whole main_v1).slice (win0_3.rect t)).set
    rw [View.set_slice_whole, Rect.mem_set_unit]
    intro a
    match a with
    | ⟨0, _⟩ =>
      show win0_3.index t 0 * 50 ≤ (i 0).val ∧ (i 0).val < win0_3.index t 0 * 50 + 50
      rw [hi.1]; omega
    | ⟨1, _⟩ =>
      show win0_3.index t 1 * 2048 ≤ (i 1).val ∧ (i 1).val < win0_3.index t 1 * 2048 + 2048
      rw [hi.2]; omega

/-- The kernel's run, read: every weakly fair execution ends with the result array at the specification of the
    arguments as launched, and the arguments unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Result

end
-- ==== Proof.lean ====
/-
  A linear layer: y = x · weightᵀ + bias, with x 50 × 8192, weight 8192 × 8192 (one row per output column), bias 8192.

  The reference contracts `x` with `weight` along their column axes in one operation and adds `bias` spread down the
  rows: entry (p, o) is  Σ_{j < 8192} x[p, j] · weight[o, j]  +  bias[o].

  The kernel walks a 4 × 4 grid (i, k). At each point it holds columns 2048k … of `x`, rows 2048i … and the same
  columns of `weight`, and an accumulator block; it zeroes the accumulator at k = 0, adds the products of the low and
  of the high 1024 columns of its blocks (rounding to a shorter float format on the way into the products, which on the
  extended reals changes nothing), and at k = 3 writes out accumulator + bias for columns 2048i … 2048i + 2047.

  On the extended reals the two agree entry by entry: the kernel's eight partial sums, taken left to right from zero,
  are the prefixes of the one sum the reference takes, because addition there is associative with neutral element 0;
  no finiteness of the inputs is needed. The modules:
    Spec          the product terms, their prefix sums, and the specification G;
    RefSpec       the reference's result is G of its arguments;
    KernelPieces  what one run of the body leaves in the accumulator and the output block, as the body's arithmetic;
    KernelPay     that arithmetic at one entry, on the extended reals;
    KernelBlocks  which entries of the whole arrays the body's half-blocks are;
    KernelAcc     the accumulator after every point is a prefix sum (induction on the point); the block written out;
    KernelResult  the four blocks written out tile the result array, which therefore ends holding G.
  The kernel's idealization rewrote no operation, so it is the kernel's own text read on the extended reals.
-/
import proofs.«115846_j30399778521256_2_alg».proof.Defs
import proofs.«115846_j30399778521256_2_alg».proof.Proof.Gen.Kernel
import proofs.«115846_j30399778521256_2_alg».proof.Proof.Gen.Kernel.Skeleton
import proofs.«115846_j30399778521256_2_alg».proof.Proof.Gen.Kernel.Launch
import proofs.«115846_j30399778521256_2_alg».proof.Proof.Gen.Kernel.Points
import proofs.«115846_j30399778521256_2_alg».proof.Proof.Gen.Kernel.Frame
import proofs.«115846_j30399778521256_2_alg».proof.Proof.Gen.KernelIdeal
import proofs.«115846_j30399778521256_2_alg».proof.Proof.Gen.KernelIdeal.Skeleton
import proofs.«115846_j30399778521256_2_alg».proof.Proof.Gen.KernelIdeal.Launch
import proofs.«115846_j30399778521256_2_alg».proof.Proof.Gen.KernelIdeal.Points
import proofs.«115846_j30399778521256_2_alg».proof.Proof.Gen.KernelIdeal.Frame
import proofs.«115846_j30399778521256_2_alg».proof.Proof.Gen.ReferenceIdeal
import proofs.«115846_j30399778521256_2_alg».proof.Proof.Gen.Pre_finite_inputs
import proofs.«115846_j30399778521256_2_alg».proof.Proof.Gen.KernelIdeal.Value
import proofs.«115846_j30399778521256_2_alg».proof.Proof.Gen.ReferenceIdeal.Run
import proofs.«115846_j30399778521256_2_alg».proof.Proof.Gen.ReferenceIdeal.Read
import proofs.«115846_j30399778521256_2_alg».proof.Proof.RefSpec
import proofs.«115846_j30399778521256_2_alg».proof.Proof.KernelResult
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the three arguments, both programs end with the result array at the specification of
    those arguments: the kernel by the prefix-sum invariant, the reference by reading its four operations. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
